-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8 : Shape := ⟨2, ![512, 8]⟩
abbrev S8x32000x256 : Shape := ⟨3, ![8, 32000, 256]⟩
abbrev S256 : Shape := ⟨1, ![256]⟩
abbrev S256x256 : Shape := ⟨2, ![256, 256]⟩
abbrev S256x256000 : Shape := ⟨2, ![256, 256000]⟩
abbrev S256000 : Shape := ⟨1, ![256000]⟩
abbrev S_ : Shape := ⟨0, ![]⟩

class Facts : Prop where
  bcast_S_S8x32000x256 : S_.BroadcastsInDim S8x32000x256 (![] : Fin 0 → Fin S8x32000x256.rank)
  reducesTo_S8x32000x256_S_d0_1_2 : S8x32000x256.ReducesTo [0, 1, 2] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x256000 : S_.BroadcastsInDim S256x256000 (![] : Fin 0 → Fin S256x256000.rank)
  reducesTo_S256x256000_S_d0_1 : S256x256000.ReducesTo [0, 1] S_
  bcast_S_S256000 : S_.BroadcastsInDim S256000 (![] : Fin 0 → Fin S256000.rank)
  reducesTo_S256000_S_d0 : S256000.ReducesTo [0] S_

variable [Facts]

def fn_part1 {F : FTy → Type} [FloatOps F] (main_arg5 : FVec F S256x256000 .f32) (main_arg6 : FVec F S256000 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256000 .f32 := Host.absf main_arg5
  let main_cst_6 : FVec F S_ .f32 := constant S_ .f32 0x7F800000#32
  let main_v20 : FVec F S256x256000 .f32 := broadcastInDim S256x256000 ![] bcast_S_S256x256000 main_cst_6
  let main_v21 : IVec S256x256000 1 := cmpf .olt main_v19 main_v20
  let main_c_7 : IVec S_ 1 := constantI S_ 1 1#1
  let main_v22 : IVec S_ 1 := (fun x v => Host.reduce IntOp.andi x v reducesTo_S256x256000_S_d0_1 h_S_) main_v21 main_c_7
  let main_v23 : IVec S_ 1 := andi main_v18 main_v22
  let main_v24 : FVec F S256000 .f32 := Host.absf main_arg6
  let main_cst_8 : FVec F S_ .f32 := constant S_ .f32 0x7F800000#32
  let main_v25 : FVec F S256000 .f32 := broadcastInDim S256000 ![] bcast_S_S256000 main_cst_8
  let main_v26 : IVec S256000 1 := cmpf .olt main_v24 main_v25
  let main_c_9 : IVec S_ 1 := constantI S_ 1 1#1
  let main_v27 : IVec S_ 1 := (fun x v => Host.reduce IntOp.andi x v reducesTo_S256000_S_d0 h_S_) main_v26 main_c_9
  let main_v28 : IVec S_ 1 := andi main_v23 main_v27
  main_v28

def fn {F : FTy → Type} [FloatOps F] (main_arg0 : IVec S512x8 32) (main_arg1 : FVec F S8x32000x256 .f32) (main_arg2 : FVec F S256 .f32) (main_arg3 : FVec F S256x256 .f32) (main_arg4 : FVec F S256 .f32) (main_arg5 : FVec F S256x256000 .f32) (main_arg6 : FVec F S256000 .f32) : IVec S_ 1 :=
  let main_v0 : FVec F S8x32000x256 .f32 := Host.absf main_arg1
  let main_cst : FVec F S_ .f32 := constant S_ .f32 0x7F800000#32
  let main_v1 : FVec F S8x32000x256 .f32 := broadcastInDim S8x32000x256 ![] bcast_S_S8x32000x256 main_cst
  let main_v2 : IVec S8x32000x256 1 := cmpf .olt main_v0 main_v1
  let main_c : IVec S_ 1 := constantI S_ 1 1#1
  let main_v3 : IVec S_ 1 := (fun x v => Host.reduce IntOp.andi x v reducesTo_S8x32000x256_S_d0_1_2 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S512x8 : Shape := ⟨2, ![512, 8]⟩
abbrev S8x32000x256 : Shape := ⟨3, ![8, 32000, 256]⟩
abbrev S256 : Shape := ⟨1, ![256]⟩
abbrev S256x256 : Shape := ⟨2, ![256, 256]⟩
abbrev S256x256000 : Shape := ⟨2, ![256, 256000]⟩
abbrev S256000 : Shape := ⟨1, ![256000]⟩
abbrev S8 : Shape := ⟨1, ![8]⟩
abbrev S1x8 : Shape := ⟨2, ![1, 8]⟩
abbrev S_ : Shape := ⟨0, ![]⟩
abbrev S512x8x1 : Shape := ⟨3, ![512, 8, 1]⟩
abbrev S512x8x2 : Shape := ⟨3, ![512, 8, 2]⟩
abbrev S512x8x256 : Shape := ⟨3, ![512, 8, 256]⟩
abbrev S512x256 : Shape := ⟨2, ![512, 256]⟩
abbrev S1x256 : Shape := ⟨2, ![1, 256]⟩
abbrev S1x256000 : Shape := ⟨2, ![1, 256000]⟩
abbrev S512x256000 : Shape := ⟨2, ![512, 256000]⟩
abbrev S256x6400 : Shape := ⟨2, ![256, 6400]⟩
abbrev S1x6400 : Shape := ⟨2, ![1, 6400]⟩
abbrev S512x8x32000 : Shape := ⟨3, ![512, 8, 32000]⟩

abbrev nBuf : Space → Nat
  | .hbm => 47
  | .vmem => 8
  | .smem => 0
  | _ => 0

abbrev bufTy : (tb : Table) → Fin (tcTables nBuf tb) → BufTy
  | .hbm, ⟨0, _⟩ => ⟨S512x8, .i32⟩
  | .hbm, ⟨1, _⟩ => ⟨S8x32000x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256000, .f32⟩
  | .hbm, ⟨6, _⟩ => ⟨S256000, .f32⟩
  | .hbm, ⟨7, _⟩ => ⟨S8, .i32⟩
  | .hbm, ⟨8, _⟩ => ⟨S1x8, .i32⟩
  | .hbm, ⟨9, _⟩ => ⟨S_, .i32⟩
  | .hbm, ⟨10, _⟩ => ⟨S1x8, .i32⟩
  | .hbm, ⟨11, _⟩ => ⟨S1x8, .i1⟩
  | .hbm, ⟨12, _⟩ => ⟨S_, .i32⟩
  | .hbm, ⟨13, _⟩ => ⟨S1x8, .i32⟩
  | .hbm, ⟨14, _⟩ => ⟨S1x8, .i32⟩
  | .hbm, ⟨15, _⟩ => ⟨S1x8, .i32⟩
  | .hbm, ⟨16, _⟩ => ⟨S_, .i32⟩
  | .hbm, ⟨17, _⟩ => ⟨S512x8, .i32⟩
  | .hbm, ⟨18, _⟩ => ⟨S512x8, .i1⟩
  | .hbm, ⟨19, _⟩ => ⟨S_, .i32⟩
  | .hbm, ⟨20, _⟩ => ⟨S512x8, .i32⟩
  | .hbm, ⟨21, _⟩ => ⟨S512x8, .i32⟩
  | .hbm, ⟨22, _⟩ => ⟨S512x8, .i32⟩
  | .hbm, ⟨23, _⟩ => ⟨S512x8, .i32⟩
  | .hbm, ⟨24, _⟩ => ⟨S512x8x1, .i32⟩
  | .hbm, ⟨25, _⟩ => ⟨S512x8x1, .i32⟩
  | .hbm, ⟨26, _⟩ => ⟨S512x8x2, .i32⟩
  | .hbm, ⟨27, _⟩ => ⟨S512x8x256, .f32⟩
  | .hbm, ⟨28, _⟩ => ⟨S_, .f32⟩
  | .hbm, ⟨29, _⟩ => ⟨S512x256, .f32⟩
  | .hbm, ⟨30, _⟩ => ⟨S1x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S1x256, .f32⟩
  | .hbm, ⟨38, _⟩ => ⟨S512x256, .f32⟩
  | .hbm, ⟨39, _⟩ => ⟨S512x256, .f32⟩
  | .hbm, ⟨40, _⟩ => ⟨S_, .f32⟩
  | .hbm, ⟨41, _⟩ => ⟨S512x256, .f32⟩
  | .hbm, ⟨42, _⟩ => ⟨S512x256, .f32⟩
  | .hbm, ⟨43, _⟩ => ⟨S512x256, .bf16⟩
  | .hbm, ⟨44, _⟩ => ⟨S1x256000, .f32⟩
  | .hbm, ⟨45, _⟩ => ⟨S512x256000, .f32⟩
  | .hbm, ⟨46, _⟩ => ⟨S512x8x32000, .f32⟩
  | .local _ .vmem, ⟨0, _⟩ => ⟨S256x256, .bf16⟩
  | .local _ .vmem, ⟨1, _⟩ => ⟨S256x256, .bf16⟩
  | .local _ .vmem, ⟨2, _⟩ => ⟨S256x6400, .f32⟩
  | .local _ .vmem, ⟨3, _⟩ => ⟨S256x6400, .f32⟩
  | .local _ .vmem, ⟨4, _⟩ => ⟨S1x6400, .f32⟩
  | .local _ .vmem, ⟨5, _⟩ => ⟨S1x6400, .f32⟩
  | .local _ .vmem, ⟨6, _⟩ => ⟨S256x6400, .f32⟩
  | .local _ .vmem, ⟨7, _⟩ => ⟨S256x6400, .f32⟩
  | _, _ => ⟨S512x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_cst : Ref sig .tc := ⟨.hbm, 40, rfl⟩
abbrev main_call1_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 40], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x6400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x6400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S8_S1x8_1 : S8.BroadcastsInDim S1x8 (![1] : Fin 1 → Fin S1x8.rank)
  bcast_S_S1x8 : S_.BroadcastsInDim S1x8 (![] : Fin 0 → Fin S1x8.rank)
  bcast_S_S512x8 : S_.BroadcastsInDim S512x8 (![] : Fin 0 → Fin S512x8.rank)
  bcast_S1x8_S512x8_0_1 : S1x8.BroadcastsInDim S512x8 (![0, 1] : Fin 2 → Fin S512x8.rank)
  bcast_S512x8_S512x8x1_0_1 : S512x8.BroadcastsInDim S512x8x1 (![0, 1] : Fin 2 → Fin S512x8x1.rank)
  concatenates_S512x8x1_S512x8x1_S512x8x2_d2 : Shape.Concatenates [S512x8x1, S512x8x1] S512x8x2 2
  reducesTo_S512x8x256_S512x256_d1 : S512x8x256.ReducesTo [1] S512x256
  h_S_ : 0 < S_.numel
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bitsLt_bf16_f32 : FTy.bits .bf16 < FTy.bits .f32
  shapeCasts_S256000_S1x256000 : S256000.ShapeCasts S1x256000
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x6400_S256x6400_0_0 : ∀ a, (![0, 0] : Fin 2 → Nat) a + S256x6400.size a ≤ S256x6400.size a
  h_S256x6400 : 0 < S256x6400.numel
  inb_S1x6400_S1x6400_0_0 : ∀ a, (![0, 0] : Fin 2 → Nat) a + S1x6400.size a ≤ S1x6400.size a
  h_S1x6400 : 0 < S1x6400.numel
  shapeCasts_S1x6400_S1x6400 : S1x6400.ShapeCasts S1x6400
  broadcasts_S1x6400_S256x6400 : S1x6400.Broadcasts S256x6400
  shapeCasts_S512x256000_S512x8x32000 : S512x256000.ShapeCasts S512x8x32000
  gather_S8x32000x256_S512x8x2_S512x8x256_2_01_n_n_01_2_11256_wf : GatherDims.WF S8x32000x256 S512x8x2 S512x8x256 [2] [0, 1] [] [0, 1] [] 2 ![1, 1, 256]
  dot_S512x256_S256x256_S512x256_1_0_0_1_n_n_wf : DotDims.WF S512x256 S256x256 S512x256 [1] [0] [0] [1] [] []
  dot_S256x256_S256x6400_S256x6400_1_0_0_1_n_n_wf : DotDims.WF S256x256 S256x6400 S256x6400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S512x256.size a
  hwx0_0 : ∀ i : grid0.Coords, EltTy.bits .bf16 = 32 ∨ (Rect.block (s := S512x256) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6400.size a ≤ S256x256000.size a
  hwx0_1 : ∀ i : grid0.Coords, EltTy.bits .f32 = 32 ∨ (Rect.block (s := S256x256000) S256x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x6400.size a ≤ S1x256000.size a
  hwx0_2 : ∀ i : grid0.Coords, EltTy.bits .f32 = 32 ∨ (Rect.block (s := S1x256000) S1x6400.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x6400.size a ≤ S512x256000.size a
  hwx0_3 : ∀ i : grid0.Coords, EltTy.bits .f32 = 32 ∨ (Rect.block (s := S512x256000) S256x6400.size (cc0_transform_3 i) (hinb0_3 i)).WholeWords (EltTy.packing .f32)

variable [Facts₀]

def gather_S8x32000x256_S512x8x2_S512x8x256_2_01_n_n_01_2_11256 : GatherDims S8x32000x256 S512x8x2 S512x8x256 where
  offsetDims := [2]
  collapsedSliceDims := [0, 1]
  operandBatchingDims := []
  startIndicesBatchingDims := []
  startIndexMap := [0, 1]
  indexVectorDim := 2
  sliceSizes := ![1, 1, 256]
  wf := gather_S8x32000x256_S512x8x2_S512x8x256_2_01_n_n_01_2_11256_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S256x256_S256x6400_S256x6400_1_0_0_1_n_n : DotDims S256x256 S256x6400 S256x6400 where
  lhsContracting := [1]
  rhsContracting := [0]
  lhsNonContracting := [0]
  rhsNonContracting := [1]
  lhsBatch := []
  rhsBatch := []
  wf := dot_S256x256_S256x6400_S256x6400_1_0_0_1_n_n_wf

abbrev win0_0 : Pipeline.Window sig grid0 :=
  Pipeline.Window.ofSpec (Memref.whole main_v27) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x6400.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S256x6400.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x8 : Shape := ⟨2, ![512, 8]⟩
abbrev S8x32000x256 : Shape := ⟨3, ![8, 32000, 256]⟩
abbrev S256 : Shape := ⟨1, ![256]⟩
abbrev S256x256 : Shape := ⟨2, ![256, 256]⟩
abbrev S256x256000 : Shape := ⟨2, ![256, 256000]⟩
abbrev S256000 : Shape := ⟨1, ![256000]⟩
abbrev S8 : Shape := ⟨1, ![8]⟩
abbrev S1x8 : Shape := ⟨2, ![1, 8]⟩
abbrev S_ : Shape := ⟨0, ![]⟩
abbrev S512x8x1 : Shape := ⟨3, ![512, 8, 1]⟩
abbrev S512x8x2 : Shape := ⟨3, ![512, 8, 2]⟩
abbrev S512x8x256 : Shape := ⟨3, ![512, 8, 256]⟩
abbrev S512x256 : Shape := ⟨2, ![512, 256]⟩
abbrev S1x256 : Shape := ⟨2, ![1, 256]⟩
abbrev S512x256000 : Shape := ⟨2, ![512, 256000]⟩
abbrev S1x256000 : Shape := ⟨2, ![1, 256000]⟩
abbrev S512x8x32000 : Shape := ⟨3, ![512, 8, 32000]⟩

abbrev nBuf : Space → Nat
  | .hbm => 48
  | .vmem => 0
  | .smem => 0
  | _ => 0

abbrev bufTy : (tb : Table) → Fin (tcTables nBuf tb) → BufTy
  | .hbm, ⟨0, _⟩ => ⟨S512x8, .i32⟩
  | .hbm, ⟨1, _⟩ => ⟨S8x32000x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256000, .f32⟩
  | .hbm, ⟨6, _⟩ => ⟨S256000, .f32⟩
  | .hbm, ⟨7, _⟩ => ⟨S8, .i32⟩
  | .hbm, ⟨8, _⟩ => ⟨S1x8, .i32⟩
  | .hbm, ⟨9, _⟩ => ⟨S_, .i32⟩
  | .hbm, ⟨10, _⟩ => ⟨S1x8, .i32⟩
  | .hbm, ⟨11, _⟩ => ⟨S1x8, .i1⟩
  | .hbm, ⟨12, _⟩ => ⟨S_, .i32⟩
  | .hbm, ⟨13, _⟩ => ⟨S1x8, .i32⟩
  | .hbm, ⟨14, _⟩ => ⟨S1x8, .i32⟩
  | .hbm, ⟨15, _⟩ => ⟨S1x8, .i32⟩
  | .hbm, ⟨16, _⟩ => ⟨S_, .i32⟩
  | .hbm, ⟨17, _⟩ => ⟨S512x8, .i32⟩
  | .hbm, ⟨18, _⟩ => ⟨S512x8, .i1⟩
  | .hbm, ⟨19, _⟩ => ⟨S_, .i32⟩
  | .hbm, ⟨20, _⟩ => ⟨S512x8, .i32⟩
  | .hbm, ⟨21, _⟩ => ⟨S512x8, .i32⟩
  | .hbm, ⟨22, _⟩ => ⟨S512x8, .i32⟩
  | .hbm, ⟨23, _⟩ => ⟨S512x8, .i32⟩
  | .hbm, ⟨24, _⟩ => ⟨S512x8x1, .i32⟩
  | .hbm, ⟨25, _⟩ => ⟨S512x8x1, .i32⟩
  | .hbm, ⟨26, _⟩ => ⟨S512x8x2, .i32⟩
  | .hbm, ⟨27, _⟩ => ⟨S512x8x256, .f32⟩
  | .hbm, ⟨28, _⟩ => ⟨S_, .f32⟩
  | .hbm, ⟨29, _⟩ => ⟨S512x256, .f32⟩
  | .hbm, ⟨30, _⟩ => ⟨S1x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S1x256, .f32⟩
  | .hbm, ⟨38, _⟩ => ⟨S512x256, .f32⟩
  | .hbm, ⟨39, _⟩ => ⟨S512x256, .f32⟩
  | .hbm, ⟨40, _⟩ => ⟨S_, .f32⟩
  | .hbm, ⟨41, _⟩ => ⟨S512x256, .f32⟩
  | .hbm, ⟨42, _⟩ => ⟨S512x256, .f32⟩
  | .hbm, ⟨43, _⟩ => ⟨S512x256000, .f32⟩
  | .hbm, ⟨44, _⟩ => ⟨S1x256000, .f32⟩
  | .hbm, ⟨45, _⟩ => ⟨S512x256000, .f32⟩
  | .hbm, ⟨46, _⟩ => ⟨S512x256000, .f32⟩
  | .hbm, ⟨47, _⟩ => ⟨S512x8x32000, .f32⟩
  | _, _ => ⟨S512x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_cst : Ref sig .tc := ⟨.hbm, 40, rfl⟩
abbrev main_call1_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S_S1x8 : S_.BroadcastsInDim S1x8 (![] : Fin 0 → Fin S1x8.rank)
  bcast_S_S512x8 : S_.BroadcastsInDim S512x8 (![] : Fin 0 → Fin S512x8.rank)
  bcast_S1x8_S512x8_0_1 : S1x8.BroadcastsInDim S512x8 (![0, 1] : Fin 2 → Fin S512x8.rank)
  bcast_S512x8_S512x8x1_0_1 : S512x8.BroadcastsInDim S512x8x1 (![0, 1] : Fin 2 → Fin S512x8x1.rank)
  concatenates_S512x8x1_S512x8x1_S512x8x2_d2 : Shape.Concatenates [S512x8x1, S512x8x1] S512x8x2 2
  reducesTo_S512x8x256_S512x256_d1 : S512x8x256.ReducesTo [1] S512x256
  h_S_ : 0 < S_.numel
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S256000_S1x256000_1 : S256000.BroadcastsInDim S1x256000 (![1] : Fin 1 → Fin S1x256000.rank)
  bcast_S1x256000_S512x256000_0_1 : S1x256000.BroadcastsInDim S512x256000 (![0, 1] : Fin 2 → Fin S512x256000.rank)
  shapeCasts_S512x256000_S512x8x32000 : S512x256000.ShapeCasts S512x8x32000
  gather_S8x32000x256_S512x8x2_S512x8x256_2_01_n_n_01_2_11256_wf : GatherDims.WF S8x32000x256 S512x8x2 S512x8x256 [2] [0, 1] [] [0, 1] [] 2 ![1, 1, 256]
  dot_S512x256_S256x256_S512x256_1_0_0_1_n_n_wf : DotDims.WF S512x256 S256x256 S512x256 [1] [0] [0] [1] [] []
  dot_S512x256_S256x256000_S512x256000_1_0_0_1_n_n_wf : DotDims.WF S512x256 S256x256000 S512x256000 [1] [0] [0] [1] [] []

variable [Facts₀]

def gather_S8x32000x256_S512x8x2_S512x8x256_2_01_n_n_01_2_11256 : GatherDims S8x32000x256 S512x8x2 S512x8x256 where
  offsetDims := [2]
  collapsedSliceDims := [0, 1]
  operandBatchingDims := []
  startIndicesBatchingDims := []
  startIndexMap := [0, 1]
  indexVectorDim := 2
  sliceSizes := ![1, 1, 256]
  wf := gather_S8x32000x256_S512x8x2_S512x8x256_2_01_n_n_01_2_11256_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x256000_S512x256000_1_0_0_1_n_n : DotDims S512x256 S256x256000 S512x256000 where
  lhsContracting := [1]
  rhsContracting := [0]
  lhsNonContracting := [0]
  rhsNonContracting := [1]
  lhsBatch := []
  rhsBatch := []
  wf := dot_S512x256_S256x256000_S512x256000_1_0_0_1_n_n_wf

class Facts : Prop extends Facts₀ where

variable [Facts]
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Body.lean ====
/-
  What the kernel body stores, read at an entry.

  The body multiplies its 256 × 256 block of hidden activations with its 256 × 6400 block of weights into a zero
  accumulator and adds its one-row block of the bias to every row.  At the ideal instance the rounding of the
  weights to bf16 is the identity, so entry `(p, j)` of the stored block is
  Σ_{q < 256} x0(p, q) · x1(q, j)  +  x2(0, j).
-/
import proofs.«167129_j43250320670752_2_alg».proof.Proof.Gen.KernelIdeal.Skeleton
import proofs.«167129_j43250320670752_2_alg».proof.Proof.LibPlainDot
import Idealize.ShloMosaic.Lib.ValueIdx
import Idealize.ShloMosaic.Lib.ValueLayout
import Idealize.ShloMosaic.Lib.Pipeline.Value

noncomputable section

namespace Cert.Mlp.Ker

open Idealize.ShloMosaic Idealize.ShloMosaic.ValueIdx Cert.KernelIdeal Cert.KernelIdeal.Gen

/-- The stored block at entry `(p, j)`. -/
theorem pay_ix2 (x0 : FVec Ideal S256x256 .bf16) (x1 : FVec Ideal S256x6400 .f32) (x2 : FVec Ideal S1x6400 .f32)
    (p : Fin 256) (j : Fin 6400) :
    k0_pay1 (F := Ideal) x0 x1 x2 (ix2 p j)
      = (∑ q : Fin 256, x0 (ix2 p q) * x1 (ix2 q j)) + x2 (ix2 (0 : Fin 1) j) := by
  unfold k0_pay1
  rw [shapeCast_self, shapeCast_self]
  exact congrArg₂ (fun a b : EReal => a + b)
    (Cert.PlainDot.matmul_zero_ix2 _ rfl none x0 (truncf .bf16 x1 bitsLt_bf16_f32) p j)
    (broadcastTo_1b_ab_apply x2 _ p j)

/-- The same at any index of the block. -/
theorem pay_apply (x0 : FVec Ideal S256x256 .bf16) (x1 : FVec Ideal S256x6400 .f32) (x2 : FVec Ideal S1x6400 .f32)
    (y : S256x6400.Idx) :
    k0_pay1 (F := Ideal) x0 x1 x2 y
      = (∑ q : Fin 256, x0 (ix2 (y 0) q) * x1 (ix2 q (y 1))) + x2 (ix2 (0 : Fin 1) (y 1)) := by
  exact (congrArg (k0_pay1 (F := Ideal) x0 x1 x2) (eq_ix2 y)).trans (pay_ix2 x0 x1 x2 (y 0) (y 1))

end Cert.Mlp.Ker

end
-- ==== Proof.Layer.lean ====
/-
  The last layer of the network as ONE function of its three operands.

  With `h` the hidden activations (512 rows of 256), `w` the weights (256 rows of 256000) and `b` the bias
  (256000 entries), entry `(p, j)` of the layer is  Σ_{q < 256} h(p, q) · w(q, j)  +  b(j)  on the extended reals.
  Both programs compute exactly this sum, term for term: nothing is regrouped, so no law of arithmetic is used
  and no finiteness is needed.
-/
import Idealize.ShloMosaic.Lib.ValueIdx
import Idealize.ShloMosaic.PureOps.Ideal

noncomputable section

namespace Cert.Mlp

open Idealize.ShloMosaic Idealize.ShloMosaic.ValueIdx

/-- Entry `(p, j)` of the layer: row `p` of `h` against column `j` of `w`, plus the bias at `j`. -/
def entry (h : (⟨2, ![512, 256]⟩ : Shape).Idx → EReal) (w : (⟨2, ![256, 256000]⟩ : Shape).Idx → EReal)
    (b : (⟨1, ![256000]⟩ : Shape).Idx → EReal) (p : Fin 512) (j : Fin 256000) : EReal :=
  (∑ q : Fin 256, h (ix2 p q) * w (ix2 q j)) + b (ix1 j)

/-- The layer as a 512 × 256000 array. -/
def layer (h : (⟨2, ![512, 256]⟩ : Shape).Idx → EReal) (w : (⟨2, ![256, 256000]⟩ : Shape).Idx → EReal)
    (b : (⟨1, ![256000]⟩ : Shape).Idx → EReal) : (⟨2, ![512, 256000]⟩ : Shape).Idx → EReal :=
  fun i => entry h w b (i 0) (i 1)

theorem layer_apply (h : (⟨2, ![512, 256]⟩ : Shape).Idx → EReal) (w : (⟨2, ![256, 256000]⟩ : Shape).Idx → EReal)
    (b : (⟨1, ![256000]⟩ : Shape).Idx → EReal) (p : Fin 512) (j : Fin 256000) :
    layer h w b (ix2 p j) = (∑ q : Fin 256, h (ix2 p q) * w (ix2 q j)) + b (ix1 j) := rfl

end Cert.Mlp

end
-- ==== Proof.Blocks.lean ====
/-
  From the kernel's blocks to its whole output array.

  The grid is 2 × 40.  At point (r, s) the body sees rows 256 r … 256 r + 255 of the hidden activations, columns
  6400 s … 6400 s + 6399 of the weights and of the bias row, and writes the 256 × 6400 block (r, s) of the
  output.  Entry (p, j) of that block is Σ_q x0(p, q) · x1(q, j) + x2(0, j), which is the layer's entry
  (256 r + p, 6400 s + j) of the WHOLE arrays.  The 80 blocks tile the 512 × 256000 output, so after the region the
  output array is the layer of the arrays the region found.
-/
import proofs.«167129_j43250320670752_2_alg».proof.Proof.Gen.KernelIdeal.Frame
import proofs.«167129_j43250320670752_2_alg».proof.Proof.Body
import proofs.«167129_j43250320670752_2_alg».proof.Proof.Layer
import Idealize.ShloMosaic.Lib.Pipeline.Value

set_option maxRecDepth 16384

noncomputable section

namespace Cert.Mlp.Ker

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

theorem zero_off : (![0, 0] : Fin 2 → Nat) = fun _ => 0 := funext fun a => by fin_cases a <;> rfl

/-- The bias as the region finds it — a one-row array — read as a vector. -/
def biasAt (c : Dev nD) : (⟨1, ![256000]⟩ : Shape).Idx → EReal := fun i => V m c main_v28 (ix2 (0 : Fin 1) (i 0))

theorem biasAt_ix1 (c : Dev nD) (j : Fin 256000) : biasAt m c (ix1 j) = V m c main_v28 (ix2 (0 : Fin 1) j) := rfl

/-- The layer of the arrays the region finds. -/
def G (c : Dev nD) : S512x256000.Idx → EReal := Cert.Mlp.layer (V m c main_v27) (V m c main_arg5) (biasAt m c)

/-- The block indices over the grid: the hidden activations follow the output's block row, the weights and the bias
    its block column, and the output's block indices range over 2 × 40. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 1 ∧ win0_3.index t (1 : Fin 2) ≤ 39 :=
  (by decide +kernel : ∀ t : Fin grid0.N, _)

/-- Every block of the output is some point's. -/
theorem idx_onto : ∀ (q0 : Fin 2) (q1 : Fin 40), ∃ t : Fin cfg0.N, win0_3.index t = ![q0.val, q1.val] :=
  (by decide +kernel : ∀ (q0 : Fin 2) (q1 : Fin 40), ∃ t : Fin grid0.N, win0_3.index t = ![q0.val, q1.val])

/-- Each input block is its array read through the block. -/
theorem read0 (c : Dev nD) (t : Fin cfg0.N) (z : S256x256.Idx) :
    iblk m c 0 t z = V m c main_v27 (((cfg0.win 0).blk t).view.emb z) := rfl
theorem read1 (c : Dev nD) (t : Fin cfg0.N) (z : S256x6400.Idx) :
    iblk m c 1 t z = V m c main_arg5 (((cfg0.win 1).blk t).view.emb z) := rfl
theorem read2 (c : Dev nD) (t : Fin cfg0.N) (z : S1x6400.Idx) :
    iblk m c 2 t z = V m c main_v28 (((cfg0.win 2).blk t).view.emb z) := rfl

/-- WHAT POINT `t` WRITES BACK is block `t` of the layer. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero zero_off]
  simp only [View.ld_unit_zero (S := S256x256) zero_off, View.ld_unit_zero (S := S256x6400) zero_off,
    View.ld_unit_zero (S := S1x6400) zero_off]
  obtain ⟨e0, e1, e2, e3, e4, e5, e6, e7⟩ := idx_facts t
  funext y
  show k0_pay1 (F := Ideal) (iblk m c 0 t) (iblk m c 1 t) (iblk m c 2 t) y = G m c (((cfg0.win 3).blk t).view.emb y)
  refine (pay_apply (iblk m c 0 t) (iblk m c 1 t) (iblk m c 2 t) y).trans ?_
  have hy0 : (y 0).val < 256 := (y 0).isLt
  have hy1 : (y 1).val < 6400 := (y 1).isLt
  obtain ⟨p, j, hpj, hp, hj⟩ : ∃ (p : Fin 512) (j : Fin 256000), ((cfg0.win 3).blk t).view.emb y = ix2 p j
      ∧ p.val = win0_3.index t (0 : Fin 2) * 256 + 1 * (y 0).val ∧ j.val = win0_3.index t (1 : Fin 2) * 6400 + 1 * (y 1).val :=
    ⟨_, _, eq_ix2 _, rfl, rfl⟩
  rw [hpj]
  unfold G
  rw [Cert.Mlp.layer_apply, biasAt_ix1]
  have h0 : ∀ q : Fin 256, ((cfg0.win 0).blk t).view.emb (ix2 (y 0) q) = ix2 p q := fun q => by
    funext a; apply Fin.ext
    match a with
    | ⟨0, _⟩ => show win0_0.index t (0 : Fin 2) * 256 + 1 * (y 0).val = p.val; omega
    | ⟨1, _⟩ => show win0_0.index t (1 : Fin 2) * 256 + 1 * q.val = q.val; omega
  have h1 : ∀ q : Fin 256, ((cfg0.win 1).blk t).view.emb (ix2 q (y 1)) = ix2 q j := fun q => by
    funext a; apply Fin.ext
    match a with
    | ⟨0, _⟩ => show win0_1.index t (0 : Fin 2) * 256 + 1 * q.val = q.val; omega
    | ⟨1, _⟩ => show win0_1.index t (1 : Fin 2) * 6400 + 1 * (y 1).val = j.val; omega
  have h2 : ((cfg0.win 2).blk t).view.emb (ix2 (0 : Fin 1) (y 1)) = ix2 (0 : Fin 1) j := by
    funext a; apply Fin.ext
    match a with
    | ⟨0, _⟩ => show win0_2.index t (0 : Fin 2) * 1 + 1 * 0 = 0; omega
    | ⟨1, _⟩ => show win0_2.index t (1 : Fin 2) * 6400 + 1 * (y 1).val = j.val; omega
  simp only [read0, read1, read2, h0, h1, h2]

/-- An index of the output is in point `t`'s block iff each coordinate is in the block's range on its axis. -/
theorem mem_blk (t : Fin cfg0.N) (i : S512x256000.Idx) :
    i ∈ ((cfg0.win 3).blk t).view.set ↔ ∀ a : Fin 2, win0_3.index t a * S256x6400.size a ≤ (i a).val ∧ (i a).val < win0_3.index t a * S256x6400.size a + S256x6400.size a := by
  show i ∈ ((View.whole main_v29).slice (win0_3.rect t)).set ↔ _
  rw [View.set_slice_whole, Rect.mem_set_unit]
  exact Iff.rfl

/-- Every index of the output is in the block of the point whose block row is `i 0 / 256` and block column `i 1 / 6400`. -/
theorem covered (i : S512x256000.Idx) :
    ∃ t : Fin cfg0.N, (cfg0.win 3).flush t = true ∧ i ∈ ((cfg0.win 3).blk t).view.set := by
  have hi0 : (i 0).val < 512 := (i 0).isLt
  have hi1 : (i 1).val < 256000 := (i 1).isLt
  obtain ⟨t, ht⟩ := idx_onto ⟨(i 0).val / 256, by omega⟩ ⟨(i 1).val / 6400, by omega⟩
  have q0 : win0_3.index t (0 : Fin 2) = (i 0).val / 256 := congrFun ht 0
  have q1 : win0_3.index t (1 : Fin 2) = (i 1).val / 6400 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 6400 ≤ (i 1).val ∧ (i 1).val < win0_3.index t (1 : Fin 2) * 6400 + 6400; omega

/-- THE OUTPUT ARRAY after the region: the layer of the arrays the region found. -/
theorem final (c : Dev nD) : (dats m 0 c).arrAt 3 cfg0.N = G m c :=
  (dats m 0 c).arrAt_eq_of_cover 3 (G m c) (fun t _ => flushed_eq m c t) (covered)

end Cert.Mlp.Ker

end
-- ==== Proof.Entry.lean ====
/-
  The arrays the region finds.

  Before the kernel is launched the program computes the hidden activations (an embedding lookup summed over the
  eight positions, a bias, a rectifier, a 256 × 256 product, a bias, a rectifier) and rounds them to bf16, and lays
  the bias of the last layer out as one row.  The reference computes its hidden activations by the very same
  operations of the same arguments, so they are carried here as ONE function that is never opened; at the ideal
  instance the rounding is the identity.  The one-row bias at column `j` is the bias vector at `j`.
-/
import proofs.«167129_j43250320670752_2_alg».proof.Proof.Gen.KernelIdeal.Frame
import proofs.«167129_j43250320670752_2_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.Mlp.Ker

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

set_option maxHeartbeats 2000000 in
/-- The hidden activations the region finds are the reference's hidden activations of the same arguments. -/
theorem entry_hidden (c : Dev nD) :
    (V m c main_v27 : S512x256.Idx → EReal)
      = Cert.ReferenceIdeal.Read.val_main_v26 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  dsimp only [V, V0]
  simp only [hostOps0, hostOps0_1, hostOps0_2, hostOps0_3, hostOps0_4, List.flatten_cons, List.flatten_nil, List.append_nil,
    List.cons_append, List.nil_append]
  after_results_simp <;> rfl

set_option maxHeartbeats 2000000 in
/-- The bias row the region finds is the bias vector laid out as one row. -/
theorem entry_bias_row (c : Dev nD) :
    (V m c main_v28 : S1x256000.Idx → EReal)
      = shapeCast S1x256000 (m ((c : Thread nD τ).loc main_arg6)) shapeCasts_S256000_S1x256000 := by
  dsimp only [V, V0]
  simp only [hostOps0, hostOps0_1, hostOps0_2, hostOps0_3, hostOps0_4, List.flatten_cons, List.flatten_nil, List.append_nil,
    List.cons_append, List.nil_append]
  after_results_simp <;> rfl

/-- Its entry at column `j` is the vector's entry `j`. -/
theorem entry_bias (c : Dev nD) (j : Fin 256000) :
    V m c main_v28 (ix2 (0 : Fin 1) j) = m ((c : Thread nD τ).loc main_arg6) (ix1 j) := by
  rw [entry_bias_row]
  exact shapeCast_apply _ shapeCasts_S256000_S1x256000 (ix2 (0 : Fin 1) j) (ix1 j) (by
    rw [Shape.rowMajor_val_one, Shape.rowMajor_val_two]
    show j.val = 0 * 256000 + j.val
    omega)

end Cert.Mlp.Ker

end
-- ==== Proof.KernelRun.lean ====
/-
  The kernel program's run, read: its result is the layer with its columns regrouped.

  After the region the output array is the layer of the arrays the region found (the blocks tile it); those arrays
  are the reference's hidden activations of the same arguments, the weights as launched, and the bias vector laid
  out as a row.  The one host line after the region regroups the 256000 columns as 8 × 32000.
-/
import proofs.«167129_j43250320670752_2_alg».proof.Proof.Blocks
import proofs.«167129_j43250320670752_2_alg».proof.Proof.Entry
import proofs.«167129_j43250320670752_2_alg».proof.Proof.Layer
import Idealize.ShloMosaic.Lib.StableHlo.Run

set_option maxRecDepth 16384

noncomputable section

namespace Cert.Mlp.Ker

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The program's result as a function of its arguments: the layer of the hidden activations, the weights and the
    bias, regrouped. -/
def result (c : Dev nD) : S512x8x32000.Idx → EReal :=
  shapeCast S512x8x32000
    (Cert.Mlp.layer
      (Cert.ReferenceIdeal.Read.val_main_v26 (F := Ideal) (m ((c : Thread nD τ).loc main_arg0)) (m ((c : Thread nD τ).loc main_arg1))
        (m ((c : Thread nD τ).loc main_arg2)) (m ((c : Thread nD τ).loc main_arg3)) (m ((c : Thread nD τ).loc main_arg4)))
      (m ((c : Thread nD τ).loc main_arg5)) (m ((c : Thread nD τ).loc main_arg6)))
    shapeCasts_S512x256000_S512x8x32000

/-- The layer of the arrays the region found is the layer of the arguments. -/
theorem G_eq (c : Dev nD) :
    G m c = Cert.Mlp.layer
      (Cert.ReferenceIdeal.Read.val_main_v26 (F := Ideal) (m ((c : Thread nD τ).loc main_arg0)) (m ((c : Thread nD τ).loc main_arg1))
        (m ((c : Thread nD τ).loc main_arg2)) (m ((c : Thread nD τ).loc main_arg3)) (m ((c : Thread nD τ).loc main_arg4)))
      (m ((c : Thread nD τ).loc main_arg5)) (m ((c : Thread nD τ).loc main_arg6)) := by
  unfold G
  rw [entry_hidden m c, V_main_arg5 m c]
  refine congrArg (Cert.Mlp.layer _ _) ?_
  funext i
  exact (entry_bias m c (i 0)).trans (congrArg (m ((c : Thread nD τ).loc main_arg6)) (eq_ix1 i).symm)

/-- The host line after the region regroups the output array. -/
theorem tail_eq (c : Dev nD) :
    Pipeline.afterTail₀ cfgs (dats m) 0 (V0 m) [hostOps1] c main_v30
      = shapeCast S512x8x32000 ((dats m 0 c).arrAt 3 cfg0.N) shapeCasts_S512x256000_S512x8x32000 := by
  unfold Pipeline.afterTail₀
  show StableHlo.after hostOps1 _ (Proc.devRef .tc main_v30) = _
  after_results
  have e : Pipeline.withArrays (cfgs 0).spec c (V0 m c) (fun w => (dats m 0 c).arrAt w (cfgs 0).N) (Proc.devRef .tc main_v29)
      = (dats m 0 c).arrAt 3 cfg0.N :=
    Pipeline.withArrays_arr spec0 launch0.win.arr_inj c (V0 m c) (fun w => (dats m 0 c).arrAt w cfg0.N) 3
  rw [e]
  rfl

/-- THE RUN of the kernel program at the ideal instance: it terminates without a fault, its result is `result` of its
    arguments, and its arguments end as launched. -/
theorem run : θ_run defs (onTc (τ := τ) (main (F := Ideal))) ⟨m, fun _ => 0, ρ⟩ (fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v30 (Pipeline.mem_restRefs_of main_v30 (by decide) (by decide))).trans
        ((tail_eq m c).trans (by rw [final m c, G_eq m c]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 1).trans (((dats m 0 c).arrAt_in 1 rfl _).trans ((A_eq m c 1).trans (V_main_arg5 m c))),
      ((h c).2 main_arg6 (Pipeline.mem_restRefs_of main_arg6 (by decide) (by decide))).trans (W_main_arg6 m (dats m) c)⟩)
    (run_main m ρ)

end Cert.Mlp.Ker

end
-- ==== Proof.RefLayer.lean ====
/-
  The reference's result, read as the layer.

  The reference multiplies the hidden activations with the whole weight matrix in one product, adds the bias
  broadcast down the rows, and regroups the 256000 columns as 8 × 32000.  Before the regrouping its entry
  `(p, j)` is Σ_{q < 256} h(p, q) · w(q, j) + b(j): the layer, with `h` the reference's own hidden activations.
-/
import proofs.«167129_j43250320670752_2_alg».proof.Proof.Gen.ReferenceIdeal.Read
import proofs.«167129_j43250320670752_2_alg».proof.Proof.Layer

noncomputable section

namespace Cert.Mlp.Ref

open Idealize.ShloMosaic Idealize.ShloMosaic.ValueIdx Cert.ReferenceIdeal Cert.ReferenceIdeal.Gen Cert.ReferenceIdeal.Read

/-- The product's left operand at summand `k` of entry `i`: row `i 0`, column `k`. -/
theorem lidx_eq (i : S512x256000.Idx) (k : Fin 256) : lidx_main_v27 i k = ix2 (i 0) k :=
  funext fun a => Fin.ext (by match a with | ⟨0, _⟩ => rfl | ⟨1, _⟩ => rfl)

/-- The right operand there: row `k`, column `i 1`. -/
theorem ridx_eq (i : S512x256000.Idx) (k : Fin 256) : ridx_main_v27 i k = ix2 k (i 1) :=
  funext fun a => Fin.ext (by match a with | ⟨0, _⟩ => rfl | ⟨1, _⟩ => rfl)

/-- The bias, broadcast in two steps, is read at the entry's column. -/
theorem bidx_eq (i : S512x256000.Idx) : idx_main_v28 (idx_main_v29 i) = ix1 (i 1) :=
  funext fun a => Fin.ext (by match a with | ⟨0, _⟩ => rfl)

/-- The product plus the broadcast bias is the layer of the reference's hidden activations. -/
theorem sum_is_layer (x0 : (⟨S512x8, .i32⟩ : BufTy).Contents (Elt Ideal)) (x1 : (⟨S8x32000x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S256x256000, .f32⟩ : BufTy).Contents (Elt Ideal))
    (x6 : (⟨S256000, .f32⟩ : BufTy).Contents (Elt Ideal)) :
    val_main_v30 (F := Ideal) x0 x1 x2 x3 x4 x5 x6 = Cert.Mlp.layer (val_main_v26 (F := Ideal) x0 x1 x2 x3 x4) x5 x6 := by
  funext i
  rw [val_main_v30_apply, val_main_v27_apply, val_main_v29_apply, val_main_v28_apply]
  simp only [lidx_eq, ridx_eq, bidx_eq]
  rfl

/-- The reference's result: the layer with its columns regrouped as 8 × 32000. -/
theorem result_is_layer (x0 : (⟨S512x8, .i32⟩ : BufTy).Contents (Elt Ideal)) (x1 : (⟨S8x32000x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S256x256000, .f32⟩ : BufTy).Contents (Elt Ideal))
    (x6 : (⟨S256000, .f32⟩ : BufTy).Contents (Elt Ideal)) :
    val_main_v31 (F := Ideal) x0 x1 x2 x3 x4 x5 x6
      = shapeCast S512x8x32000 (Cert.Mlp.layer (val_main_v26 (F := Ideal) x0 x1 x2 x3 x4) x5 x6) shapeCasts_S512x256000_S512x8x32000 := by
  unfold val_main_v31
  rw [sum_is_layer]

end Cert.Mlp.Ref

end
-- ==== Proof.lean ====
/-
  The certificate of the two-layer embedding network's last layer.

  Both programs compute, from the same arguments, the same hidden activations `h` (an embedding lookup summed over
  the eight positions, a bias, a rectifier, a 256 × 256 product, a bias, a rectifier) by the same host operations,
  and then the layer  out(p, j) = Σ_{q < 256} h(p, q) · w(q, j) + b(j)  with its 256000 columns regrouped as
  8 × 32000.  The kernel program rounds `h` and its blocks of `w` to bf16 (the identity on the extended reals),
  and computes the layer block by block on a 2 × 40 grid, each block one product into a zero accumulator plus the
  bias row; the reference computes it as one product plus the broadcast bias.  Entry by entry the two are the same
  sum of the same terms in the same order, so no law of arithmetic and no finiteness of the inputs is needed.
  The idealization rewrote nothing, so `preserves` is trivial.
-/
import proofs.«167129_j43250320670752_2_alg».proof.Defs
import proofs.«167129_j43250320670752_2_alg».proof.Proof.Gen.Kernel
import proofs.«167129_j43250320670752_2_alg».proof.Proof.Gen.Kernel.Skeleton
import proofs.«167129_j43250320670752_2_alg».proof.Proof.Gen.Kernel.Launch
import proofs.«167129_j43250320670752_2_alg».proof.Proof.Gen.Kernel.Points
import proofs.«167129_j43250320670752_2_alg».proof.Proof.Gen.Kernel.Frame
import proofs.«167129_j43250320670752_2_alg».proof.Proof.Gen.KernelIdeal
import proofs.«167129_j43250320670752_2_alg».proof.Proof.Gen.KernelIdeal.Skeleton
import proofs.«167129_j43250320670752_2_alg».proof.Proof.Gen.KernelIdeal.Launch
import proofs.«167129_j43250320670752_2_alg».proof.Proof.Gen.KernelIdeal.Points
import proofs.«167129_j43250320670752_2_alg».proof.Proof.Gen.KernelIdeal.Frame
import proofs.«167129_j43250320670752_2_alg».proof.Proof.Gen.ReferenceIdeal
import proofs.«167129_j43250320670752_2_alg».proof.Proof.Gen.Pre_finite_inputs
import proofs.«167129_j43250320670752_2_alg».proof.Proof.Gen.ReferenceIdeal.Run
import proofs.«167129_j43250320670752_2_alg».proof.Proof.Gen.ReferenceIdeal.Read
import proofs.«167129_j43250320670752_2_alg».proof.Proof.KernelRun
import proofs.«167129_j43250320670752_2_alg».proof.Proof.RefLayer
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer of the shared hidden activations, the
    weights and the bias, its columns regrouped: the kernel program by its blocks, the reference by its one product. -/
theorem algebraic : Cert.algebraic_KernelIdeal_ReferenceIdeal := by
  intro m ρ m' ρ' _ hagree
  refine ⟨fun c => Cert.Mlp.Ker.result m c, Cert.Mlp.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.Mlp.Ref.result_is_layer, (hagree c).1, (hagree c).2.1, (hagree c).2.2.1,
    (hagree c).2.2.2.1, (hagree c).2.2.2.2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
